-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16x2048x64 : Shape := ⟨4, ![2, 16, 2048, 64]⟩
abbrev S_ : Shape := ⟨0, ![]⟩

class Facts : Prop where
  bcast_S_S2x16x2048x64 : S_.BroadcastsInDim S2x16x2048x64 (![] : Fin 0 → Fin S2x16x2048x64.rank)
  reducesTo_S2x16x2048x64_S_d0_1_2_3 : S2x16x2048x64.ReducesTo [0, 1, 2, 3] S_
  h_S_ : 0 < S_.numel

variable [Facts]

def fn {F : FTy → Type} [FloatOps F] (main_arg0 : FVec F S2x16x2048x64 .f32) (main_arg1 : FVec F S2x16x2048x64 .f32) (main_arg2 : FVec F S2x16x2048x64 .f32) : IVec S_ 1 :=
  let main_v0 : FVec F S2x16x2048x64 .f32 := Host.absf main_arg0
  let main_cst : FVec F S_ .f32 := constant S_ .f32 0x7F800000#32
  let main_v1 : FVec F S2x16x2048x64 .f32 := broadcastInDim S2x16x2048x64 ![] bcast_S_S2x16x2048x64 main_cst
  let main_v2 : IVec S2x16x2048x64 1 := cmpf .olt main_v0 main_v1
  let main_c : IVec S_ 1 := constantI S_ 1 1#1
  let main_v3 : IVec S_ 1 := (fun x v => Host.reduce IntOp.andi x v reducesTo_S2x16x2048x64_S_d0_1_2_3 h_S_) main_v2 main_c
  let main_v4 : FVec F S2x16x2048x64 .f32 := Host.absf main_arg1
  let main_cst_0 : FVec F S_ .f32 := constant S_ .f32 0x7F800000#32
  let main_v5 : FVec F S2x16x2048x64 .f32 := broadcastInDim S2x16x2048x64 ![] bcast_S_S2x16x2048x64 main_cst_0
  let main_v6 : IVec S2x16x2048x64 1 := cmpf .olt main_v4 main_v5
  let main_c_1 : IVec S_ 1 := constantI S_ 1 1#1
  let main_v7 : IVec S_ 1 := (fun x v => Host.reduce IntOp.andi x v reducesTo_S2x16x2048x64_S_d0_1_2_3 h_S_) main_v6 main_c_1
  let main_v8 : IVec S_ 1 := andi main_v3 main_v7
  let main_v9 : FVec F S2x16x2048x64 .f32 := Host.absf main_arg2
  let main_cst_2 : FVec F S_ .f32 := constant S_ .f32 0x7F800000#32
  let main_v10 : FVec F S2x16x2048x64 .f32 := broadcastInDim S2x16x2048x64 ![] bcast_S_S2x16x2048x64 main_cst_2
  let main_v11 : IVec S2x16x2048x64 1 := cmpf .olt main_v9 main_v10
  let main_c_3 : IVec S_ 1 := constantI S_ 1 1#1
  let main_v12 : IVec S_ 1 := (fun x v => Host.reduce IntOp.andi x v reducesTo_S2x16x2048x64_S_d0_1_2_3 h_S_) main_v11 main_c_3
  let main_v13 : IVec S_ 1 := andi main_v8 main_v12
  main_v13
-- ==== Kernel.lean ====
abbrev S2x16x2048x64 : Shape := ⟨4, ![2, 16, 2048, 64]⟩
abbrev S32x2048x64 : Shape := ⟨3, ![32, 2048, 64]⟩
abbrev S32x2048x2048 : Shape := ⟨3, ![32, 2048, 2048]⟩
abbrev S1x1024x64 : Shape := ⟨3, ![1, 1024, 64]⟩
abbrev S1x2048x64 : Shape := ⟨3, ![1, 2048, 64]⟩
abbrev S1x1024x2048 : Shape := ⟨3, ![1, 1024, 2048]⟩
abbrev S1024x64 : Shape := ⟨2, ![1024, 64]⟩
abbrev S2048x64 : Shape := ⟨2, ![2048, 64]⟩
abbrev S64x2048 : Shape := ⟨2, ![64, 2048]⟩
abbrev S1024x2048 : Shape := ⟨2, ![1024, 2048]⟩
abbrev S1024 : Shape := ⟨1, ![1024]⟩
abbrev S1024x1 : Shape := ⟨2, ![1024, 1]⟩
abbrev S2x16x2048x2048 : Shape := ⟨4, ![2, 16, 2048, 2048]⟩

abbrev nBuf : Space → Nat
  | .hbm => 10
  | .vmem => 10
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S32x2048x64, .f32⟩
  | .hbm, ⟨4, _⟩ => ⟨S32x2048x64, .f32⟩
  | .hbm, ⟨5, _⟩ => ⟨S32x2048x64, .f32⟩
  | .hbm, ⟨6, _⟩ => ⟨S32x2048x64, .f32⟩
  | .hbm, ⟨7, _⟩ => ⟨S32x2048x2048, .f32⟩
  | .hbm, ⟨8, _⟩ => ⟨S2x16x2048x64, .f32⟩
  | .hbm, ⟨9, _⟩ => ⟨S2x16x2048x2048, .f32⟩
  | .local _ .vmem, ⟨0, _⟩ => ⟨S1x1024x64, .f32⟩
  | .local _ .vmem, ⟨1, _⟩ => ⟨S1x1024x64, .f32⟩
  | .local _ .vmem, ⟨2, _⟩ => ⟨S1x2048x64, .f32⟩
  | .local _ .vmem, ⟨3, _⟩ => ⟨S1x2048x64, .f32⟩
  | .local _ .vmem, ⟨4, _⟩ => ⟨S1x2048x64, .f32⟩
  | .local _ .vmem, ⟨5, _⟩ => ⟨S1x2048x64, .f32⟩
  | .local _ .vmem, ⟨6, _⟩ => ⟨S1x1024x64, .f32⟩
  | .local _ .vmem, ⟨7, _⟩ => ⟨S1x1024x64, .f32⟩
  | .local _ .vmem, ⟨8, _⟩ => ⟨S1x1024x2048, .f32⟩
  | .local _ .vmem, ⟨9, _⟩ => ⟨S1x1024x2048, .f32⟩
  | _, _ => ⟨S2x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![32, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S2x16x2048x64_S32x2048x64 : S2x16x2048x64.ShapeCasts S32x2048x64
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  transposes_S2048x64_p1_0_S64x2048 : S2048x64.Transposes [1, 0] S64x2048
  reduces_S1024x2048_S1024 : S1024x2048.Reduces [1] S1024
  shapeCasts_S1024_S1024x1 : S1024.ShapeCasts S1024x1
  broadcasts_S1024x1_S1024x2048 : S1024x1.Broadcasts S1024x2048
  shapeCasts_S1024x64_S1x1024x64 : S1024x64.ShapeCasts S1x1024x64
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  shapeCasts_S1024x2048_S1x1024x2048 : S1024x2048.ShapeCasts S1x1024x2048
  shapeCasts_S32x2048x64_S2x16x2048x64 : S32x2048x64.ShapeCasts S2x16x2048x64
  shapeCasts_S32x2048x2048_S2x16x2048x2048 : S32x2048x2048.ShapeCasts S2x16x2048x2048
  dot_S1024x64_S64x2048_S1024x2048_1_0_0_1_n_n_wf : DotDims.WF S1024x64 S64x2048 S1024x2048 [1] [0] [0] [1] [] []
  dot_S1024x2048_S2048x64_S1024x64_1_0_0_1_n_n_wf : DotDims.WF S1024x2048 S2048x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x64.size a ≤ S32x2048x64.size a
  hwx0_0 : ∀ i : grid0.Coords, EltTy.bits .f32 = 32 ∨ (Rect.block (s := S32x2048x64) S1x1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S32x2048x64.size a
  hwx0_1 : ∀ i : grid0.Coords, EltTy.bits .f32 = 32 ∨ (Rect.block (s := S32x2048x64) S1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S32x2048x64.size a
  hwx0_2 : ∀ i : grid0.Coords, EltTy.bits .f32 = 32 ∨ (Rect.block (s := S32x2048x64) S1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x64.size a ≤ S32x2048x64.size a
  hwx0_3 : ∀ i : grid0.Coords, EltTy.bits .f32 = 32 ∨ (Rect.block (s := S32x2048x64) S1x1024x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x2048.size a ≤ S32x2048x2048.size a
  hwx0_4 : ∀ i : grid0.Coords, EltTy.bits .f32 = 32 ∨ (Rect.block (s := S32x2048x2048) S1x1024x2048.size (cc0_transform_4 i) (hinb0_4 i)).WholeWords (EltTy.packing .f32)

variable [Facts₀]

def dot_S1024x64_S64x2048_S1024x2048_1_0_0_1_n_n : DotDims S1024x64 S64x2048 S1024x2048 where
  lhsContracting := [1]
  rhsContracting := [0]
  lhsNonContracting := [0]
  rhsNonContracting := [1]
  lhsBatch := []
  rhsBatch := []
  wf := dot_S1024x64_S64x2048_S1024x2048_1_0_0_1_n_n_wf
def dot_S1024x2048_S2048x64_S1024x64_1_0_0_1_n_n : DotDims S1024x2048 S2048x64 S1024x64 where
  lhsContracting := [1]
  rhsContracting := [0]
  lhsNonContracting := [0]
  rhsNonContracting := [1]
  lhsBatch := []
  rhsBatch := []
  wf := dot_S1024x2048_S2048x64_S1024x64_1_0_0_1_n_n_wf

abbrev win0_0 : Pipeline.Window sig grid0 :=
  Pipeline.Window.ofSpec (Memref.whole main_v0) S1x1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3_0) S1x1024x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3_1) S1x1024x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2x16x2048x64 : Shape := ⟨4, ![2, 16, 2048, 64]⟩
abbrev S2x16x2048x2048 : Shape := ⟨4, ![2, 16, 2048, 2048]⟩
abbrev S_ : Shape := ⟨0, ![]⟩
abbrev S2x16x2048 : Shape := ⟨3, ![2, 16, 2048]⟩
abbrev S2x16x2048x1 : Shape := ⟨4, ![2, 16, 2048, 1]⟩

abbrev nBuf : Space → Nat
  | .hbm => 27
  | .vmem => 0
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S2x16x2048x2048, .f32⟩
  | .hbm, ⟨4, _⟩ => ⟨S_, .f32⟩
  | .hbm, ⟨5, _⟩ => ⟨S2x16x2048x2048, .f32⟩
  | .hbm, ⟨6, _⟩ => ⟨S2x16x2048x2048, .f32⟩
  | .hbm, ⟨7, _⟩ => ⟨S_, .f32⟩
  | .hbm, ⟨8, _⟩ => ⟨S2x16x2048, .f32⟩
  | .hbm, ⟨9, _⟩ => ⟨S2x16x2048x1, .f32⟩
  | .hbm, ⟨10, _⟩ => ⟨S2x16x2048x2048, .f32⟩
  | .hbm, ⟨11, _⟩ => ⟨S2x16x2048x2048, .f32⟩
  | .hbm, ⟨12, _⟩ => ⟨S_, .f32⟩
  | .hbm, ⟨13, _⟩ => ⟨S2x16x2048, .f32⟩
  | .hbm, ⟨14, _⟩ => ⟨S_, .f32⟩
  | .hbm, ⟨15, _⟩ => ⟨S2x16x2048, .f32⟩
  | .hbm, ⟨16, _⟩ => ⟨S2x16x2048, .f32⟩
  | .hbm, ⟨17, _⟩ => ⟨S2x16x2048x1, .f32⟩
  | .hbm, ⟨18, _⟩ => ⟨S2x16x2048x2048, .f32⟩
  | .hbm, ⟨19, _⟩ => ⟨S2x16x2048x2048, .f32⟩
  | .hbm, ⟨20, _⟩ => ⟨S2x16x2048x2048, .f32⟩
  | .hbm, ⟨21, _⟩ => ⟨S_, .f32⟩
  | .hbm, ⟨22, _⟩ => ⟨S2x16x2048, .f32⟩
  | .hbm, ⟨23, _⟩ => ⟨S2x16x2048x1, .f32⟩
  | .hbm, ⟨24, _⟩ => ⟨S2x16x2048x2048, .f32⟩
  | .hbm, ⟨25, _⟩ => ⟨S2x16x2048x2048, .f32⟩
  | .hbm, ⟨26, _⟩ => ⟨S2x16x2048x64, .f32⟩
  | _, _ => ⟨S2x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_3 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]

class Facts₀ : Prop where
  bcast_S_S2x16x2048x2048 : S_.BroadcastsInDim S2x16x2048x2048 (![] : Fin 0 → Fin S2x16x2048x2048.rank)
  reducesTo_S2x16x2048x2048_S2x16x2048_d3 : S2x16x2048x2048.ReducesTo [3] S2x16x2048
  h_S_ : 0 < S_.numel
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  bcast_S_S2x16x2048 : S_.BroadcastsInDim S2x16x2048 (![] : Fin 0 → Fin S2x16x2048.rank)
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.LibFinite.lean ====
/-
  General facts about finiteness on the extended reals, for certificates whose precondition says that every
  float input is finite and whose algebra (distributivity, cancellation) needs it.

  * `coe_sum`: the inclusion of the reals into the extended reals commutes with finite sums, so an identity
    between sums of finite entries can be proved over the reals and carried back.
  * `ofBool_one`, `inf_word`, `finite_of_abs_lt`: one element of a printed `|x| < +∞` test, read back — the
    f32 word `0x7F800000` is `+∞`, `|x|` is `max x (-x)`, and that is below `+∞` only when `x` is a real number.
-/
import Idealize.ShloMosaic.PureOps.Ideal
import Idealize.ShloMosaic.PureOps.Ideal.Laws

namespace Cert.LibFinite

open Idealize.ShloMosaic

/-- The inclusion of the reals into the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A Boolean read as a one-bit word is the word 1 exactly when it is true. -/
theorem ofBool_one (b : Bool) : BitVec.ofBool b = 1#1 ↔ b = true := by cases b <;> decide

/-- The f32 word `0x7F800000` is `+∞`. -/
theorem inf_word : Ideal.ofBits .f32 0x7F800000#32 = ⊤ := by simp [Ideal.ofBits, Ideal.ieee]

/-- An extended real whose absolute value compares below `+∞` is neither infinity: `|x| = max x (-x)` is `+∞` at
    both. (The host's and the kernel's absolute value are one function on the extended reals.) -/
theorem finite_of_abs_lt (x : EReal)
    (h : FloatOps.cmpf (F := Ideal) (φ := .f32) .olt (FloatOps.hostAbsf (F := Ideal) (φ := .f32) x)
      (Ideal.ofBits .f32 0x7F800000#32) = 1#1) : x ≠ ⊤ ∧ x ≠ ⊥ := by
  rw [Ideal.hostAbsf_def, Ideal.absf_def, Ideal.cmpf_def, inf_word] at h
  have h2 : BitVec.ofBool (decide (max x (-x) < ⊤)) = 1#1 := h
  have h' : max x (-x) < ⊤ := of_decide_eq_true ((ofBool_one _).1 h2)
  induction x using EReal.rec with
  | bot => simp at h'
  | top => simp at h'
  | coe r => exact ⟨EReal.coe_ne_top r, EReal.coe_ne_bot r⟩

end Cert.LibFinite
-- ==== Proof.SoftmaxRow.lean ====
/-
  The mathematics of one attention row on the extended reals, over abstract finite index types: no program is
  imported here.

  A row of scores `s : κ → EReal` has a maximum `rowMax s` (the fold of `max` from `-∞`), shifted exponentials
  `exp (s k - rowMax s)`, and their sum. The weights are written in two arrangements:

  * `softmaxMul`: the exponential times the reciprocal `1 / sum`, after ONE subtraction of the maximum;
  * `softmaxDiv`: the exponential divided by the sum, after the maximum is subtracted TWICE (the second time the
    maximum of the already shifted row, itself joined with `-∞`), the sum started from `0`.

  When every score is a real number and the row is not empty the two agree: the maximum is then a real number that
  some score attains, so the shifted row has maximum `0` and the second subtraction changes nothing; and the sum is a
  sum of positive reals, hence not zero, so that dividing by it is multiplying by its inverse. Both steps fail at an
  infinity (`∞ - ∞` is not `0`), which is why finiteness of the scores is assumed.

  Also here: the four float words the two programs spell (`8`, `1/8`, `1`, `-∞`), that dividing by `8` is multiplying
  by `1/8` on every extended real, and that a scaled finite sum of products of reals is a real.
-/
import Idealize.ShloMosaic.PureOps.Ideal
import Idealize.ShloMosaic.PureOps.Ideal.Laws
import proofs.«132399_j9354438771232_2_alg».proof.Proof.LibFinite

noncomputable section

namespace Cert.AttnRow

open Idealize.ShloMosaic

/-! ## The float words -/

/-- The word `0x41000000` is the real `8`. -/
theorem word_eight : Ideal.ofBits .f32 0x41000000#32 = ((8 : ℝ) : EReal) := by
  simp [Ideal.ofBits, Ideal.ieee, -EReal.coe_mul]; norm_num

/-- The word `0x3E000000` is the real `1/8`. -/
theorem word_eighth : Ideal.ofBits .f32 0x3E000000#32 = ((1 / 8 : ℝ) : EReal) := by
  simp [Ideal.ofBits, Ideal.ieee, -EReal.coe_mul]; norm_num

/-- The word `0x3F800000` is `1`. -/
theorem word_one : Ideal.ofBits .f32 0x3F800000#32 = 1 := by
  simp [Ideal.ofBits, Ideal.ieee, -EReal.coe_mul]; norm_num

/-- The word `0xFF800000` is `-∞`. -/
theorem word_neg_inf : Ideal.ofBits .f32 0xFF800000#32 = ⊥ := by
  simp [Ideal.ofBits, Ideal.ieee]

/-- Dividing by `8` is multiplying by `1/8`, on every extended real. -/
theorem div_eight (x : EReal) :
    Ideal.div x (Ideal.ofBits .f32 0x41000000#32) = x * Ideal.ofBits .f32 0x3E000000#32 := by
  rw [word_eight, word_eighth, Ideal.div_coe (by norm_num)]

/-! ## A row's maximum -/

section Row

variable {κ : Type*} [Fintype κ]

/-- The maximum of a row: the fold of `max` from `-∞`. -/
def rowMax (s : κ → EReal) : EReal := (Finset.univ : Finset κ).fold max ⊥ s

theorem le_rowMax (s : κ → EReal) (k : κ) : s k ≤ rowMax s :=
  (Finset.le_fold_max _).2 (Or.inr ⟨k, Finset.mem_univ k, le_rfl⟩)

theorem rowMax_le (s : κ → EReal) (c : EReal) (h : ∀ k, s k ≤ c) : rowMax s ≤ c :=
  (Finset.fold_max_le _).2 ⟨bot_le, fun k _ => h k⟩

/-- A row that is not empty attains its maximum. -/
theorem rowMax_attained [Nonempty κ] (s : κ → EReal) : ∃ k, rowMax s = s k := by
  obtain ⟨k, -, hk⟩ := Finset.exists_max_image (Finset.univ : Finset κ) s Finset.univ_nonempty
  exact ⟨k, le_antisymm (rowMax_le s _ fun j => hk j (Finset.mem_univ j)) (le_rowMax s k)⟩

/-! ## The two arrangements of the weights -/

/-- The shifted exponential of entry `k`. -/
def expRow (s : κ → EReal) (k : κ) : EReal := Ideal.exp (s k - rowMax s)

/-- The weights as the exponential times the reciprocal of the sum. -/
def softmaxMul (s : κ → EReal) (k : κ) : EReal := expRow s k * Ideal.div 1 (∑ j, expRow s j)

/-- The row shifted by its maximum, and the maximum of that, joined with `-∞`. -/
def shifted (s : κ → EReal) (k : κ) : EReal := s k - rowMax s
def secondMax (s : κ → EReal) : EReal := max ⊥ (rowMax (shifted s))

/-- The weights as the exponential of the twice-shifted row divided by its sum started from `0`. -/
def softmaxDiv (s : κ → EReal) (k : κ) : EReal :=
  Ideal.div (Ideal.exp (shifted s k - secondMax s)) (0 + ∑ j, Ideal.exp (shifted s j - secondMax s))

/-- For a row of reals that is not empty the shifted row has maximum `0`. -/
theorem secondMax_eq_zero [Nonempty κ] (s : κ → EReal) (hs : ∀ k, s k ≠ ⊤ ∧ s k ≠ ⊥) : secondMax s = 0 := by
  obtain ⟨k0, hk0⟩ := rowMax_attained s
  have hr : rowMax s = ((s k0).toReal : EReal) := by rw [hk0, EReal.coe_toReal (hs k0).1 (hs k0).2]
  have hshift : ∀ k, shifted s k = (((s k).toReal - (s k0).toReal : ℝ) : EReal) := fun k => by
    unfold shifted
    rw [hr, EReal.coe_sub, EReal.coe_toReal (hs k).1 (hs k).2]
  have hle : ∀ k, shifted s k ≤ 0 := fun k => by
    rw [hshift k]
    have h1 : s k ≤ s k0 := hk0 ▸ le_rowMax s k
    have h2 : (s k).toReal ≤ (s k0).toReal := EReal.toReal_le_toReal h1 (hs k).2 (hs k0).1
    exact_mod_cast sub_nonpos.2 h2
  have hz : shifted s k0 = 0 := by rw [hshift k0, sub_self, EReal.coe_zero]
  have : rowMax (shifted s) = 0 :=
    le_antisymm (rowMax_le _ 0 hle) (hz ▸ le_rowMax (shifted s) k0)
  unfold secondMax
  rw [this]
  exact max_eq_right bot_le

/-- For a row of reals that is not empty the sum of the shifted exponentials is not zero. -/
theorem sum_expRow_ne_zero [Nonempty κ] (s : κ → EReal) (hs : ∀ k, s k ≠ ⊤ ∧ s k ≠ ⊥) : (∑ j, expRow s j) ≠ 0 := by
  obtain ⟨k0, hk0⟩ := rowMax_attained s
  have hr : rowMax s = ((s k0).toReal : EReal) := by rw [hk0, EReal.coe_toReal (hs k0).1 (hs k0).2]
  have he : ∀ j, expRow s j = ((Real.exp ((s j).toReal - (s k0).toReal) : ℝ) : EReal) := fun j => by
    unfold expRow
    rw [hr]
    conv_lhs => rw [← EReal.coe_toReal (hs j).1 (hs j).2, ← EReal.coe_sub]
    rfl
  rw [Finset.sum_congr rfl fun j _ => he j, ← Cert.LibFinite.coe_sum]
  have hpos : 0 < ∑ j : κ, Real.exp ((s j).toReal - (s k0).toReal) :=
    Finset.sum_pos (fun j _ => Real.exp_pos _) Finset.univ_nonempty
  exact_mod_cast hpos.ne'

/-- THE LAW: on a row of reals that is not empty the two arrangements of the weights agree. -/
theorem softmaxDiv_eq_softmaxMul [Nonempty κ] (s : κ → EReal) (hs : ∀ k, s k ≠ ⊤ ∧ s k ≠ ⊥) :
    softmaxDiv s = softmaxMul s := by
  funext k
  have hne := sum_expRow_ne_zero s hs
  unfold softmaxDiv softmaxMul
  rw [secondMax_eq_zero s hs]
  simp only [sub_zero, zero_add]
  show Ideal.div (expRow s k) (∑ j, expRow s j) = expRow s k * Ideal.div 1 (∑ j, expRow s j)
  unfold Ideal.div
  rw [if_neg hne, if_neg hne, one_mul]

end Row

/-! ## A scaled sum of products of reals is a real -/

/-- The scaled inner product of two families of reals is a real. -/
theorem scaled_dot_finite {δ : Type*} [Fintype δ] (a b : δ → EReal) (ha : ∀ d, a d ≠ ⊤ ∧ a d ≠ ⊥)
    (hb : ∀ d, b d ≠ ⊤ ∧ b d ≠ ⊥) :
    (∑ d, a d * b d) * Ideal.ofBits .f32 0x3E000000#32 ≠ ⊤ ∧ (∑ d, a d * b d) * Ideal.ofBits .f32 0x3E000000#32 ≠ ⊥ := by
  have hprod : ∀ d, a d * b d = (((a d).toReal * (b d).toReal : ℝ) : EReal) := fun d => by
    rw [EReal.coe_mul, EReal.coe_toReal (ha d).1 (ha d).2, EReal.coe_toReal (hb d).1 (hb d).2]
  rw [Finset.sum_congr rfl fun d _ => hprod d, ← Cert.LibFinite.coe_sum, word_eighth, ← EReal.coe_mul]
  exact ⟨EReal.coe_ne_top _, EReal.coe_ne_bot _⟩

end Cert.AttnRow

end
-- ==== Proof.AttnSpec.lean ====
/-
  The specification of scaled dot-product attention, index by index on the extended reals, and the re-laying between
  the two shapes the programs use.

  For one query row `q : Fin 64 → EReal`, keys `K : Fin 2048 → Fin 64 → EReal` and values `V` of the same shape:
  the score against key `j` is `(∑ d, q d * K j d) * (1/8)`, the weights are the row's softmax (the arrangement
  `softmaxMul`: one subtraction of the maximum, the reciprocal of the sum), and the output is `∑ j, w j * V j d`.

  The reference works on `[2, 16, 2048, ·]` arrays, batch and head apart; the kernel on `[32, 2048, ·]` arrays, batch
  and head merged row-major (`g = 16 b + h`). `weights4` / `output4` and `weights3` / `output3` are the one row
  specification read through the two index types, and they agree wherever the rank-3 arguments are the rank-4 ones
  re-laid (`weights3_eq_weights4`, `output3_eq_output4`): a row depends only on its own batch and head.
-/
import Idealize.ShloMosaic.Lib.ValueIdx
import Idealize.ShloMosaic.Lib.Pipeline.Value
import proofs.«132399_j9354438771232_2_alg».proof.Proof.SoftmaxRow

noncomputable section

namespace Cert.AttnSpec

open Idealize.ShloMosaic Idealize.ShloMosaic.ValueIdx Cert.AttnRow

/-! ## One row -/

/-- The scaled scores of one query row against every key. -/
def scores (q : Fin 64 → EReal) (K : Fin 2048 → Fin 64 → EReal) (j : Fin 2048) : EReal :=
  (∑ d, q d * K j d) * Ideal.ofBits .f32 0x3E000000#32

/-- The attention weights of one query row. -/
def weightsRow (q : Fin 64 → EReal) (K : Fin 2048 → Fin 64 → EReal) : Fin 2048 → EReal := softmaxMul (scores q K)

/-- The attention output of one query row. -/
def outRow (q : Fin 64 → EReal) (K V : Fin 2048 → Fin 64 → EReal) (d : Fin 64) : EReal :=
  ∑ j, weightsRow q K j * V j d

/-- The scores of a row of reals against keys of reals are reals. -/
theorem scores_finite (q : Fin 64 → EReal) (K : Fin 2048 → Fin 64 → EReal) (hq : ∀ d, q d ≠ ⊤ ∧ q d ≠ ⊥)
    (hK : ∀ j d, K j d ≠ ⊤ ∧ K j d ≠ ⊥) (j : Fin 2048) : scores q K j ≠ ⊤ ∧ scores q K j ≠ ⊥ :=
  scaled_dot_finite q (K j) hq (hK j)

/-! ## The arrays -/

abbrev A4 : Type := (⟨4, ![2, 16, 2048, 64]⟩ : Shape).Idx → EReal
abbrev A3 : Type := (⟨3, ![32, 2048, 64]⟩ : Shape).Idx → EReal

/-- The weights, batch and head apart: entry `(b, h, i, j)`. -/
def weights4 (q k : A4) : (⟨4, ![2, 16, 2048, 2048]⟩ : Shape).Idx → EReal := fun i =>
  weightsRow (fun d => q (ix4 (i 0) (i 1) (i 2) d)) (fun j d => k (ix4 (i 0) (i 1) j d)) (i 3)

/-- The output, batch and head apart: entry `(b, h, i, d)`. -/
def output4 (q k v : A4) : (⟨4, ![2, 16, 2048, 64]⟩ : Shape).Idx → EReal := fun i =>
  outRow (fun d => q (ix4 (i 0) (i 1) (i 2) d)) (fun j d => k (ix4 (i 0) (i 1) j d)) (fun j d => v (ix4 (i 0) (i 1) j d)) (i 3)

/-- The weights, batch and head merged: entry `(g, i, j)`. -/
def weights3 (q k : A3) : (⟨3, ![32, 2048, 2048]⟩ : Shape).Idx → EReal := fun i =>
  weightsRow (fun d => q (ix3 (i 0) (i 1) d)) (fun j d => k (ix3 (i 0) j d)) (i 2)

/-- The output, batch and head merged: entry `(g, i, d)`. -/
def output3 (q k v : A3) : (⟨3, ![32, 2048, 64]⟩ : Shape).Idx → EReal := fun i =>
  outRow (fun d => q (ix3 (i 0) (i 1) d)) (fun j d => k (ix3 (i 0) j d)) (fun j d => v (ix3 (i 0) j d)) (i 2)

theorem weights4_ix4 (q k : A4) (b : Fin 2) (h : Fin 16) (i j : Fin 2048) :
    weights4 q k (ix4 b h i j) = weightsRow (fun d => q (ix4 b h i d)) (fun j' d => k (ix4 b h j' d)) j := rfl

theorem output4_ix4 (q k v : A4) (b : Fin 2) (h : Fin 16) (i : Fin 2048) (d : Fin 64) :
    output4 q k v (ix4 b h i d)
      = outRow (fun d' => q (ix4 b h i d')) (fun j d' => k (ix4 b h j d')) (fun j d' => v (ix4 b h j d')) d := rfl

theorem weights3_ix3 (q k : A3) (g : Fin 32) (i j : Fin 2048) :
    weights3 q k (ix3 g i j) = weightsRow (fun d => q (ix3 g i d)) (fun j' d => k (ix3 g j' d)) j := rfl

theorem output3_ix3 (q k v : A3) (g : Fin 32) (i : Fin 2048) (d : Fin 64) :
    output3 q k v (ix3 g i d)
      = outRow (fun d' => q (ix3 g i d')) (fun j d' => k (ix3 g j d')) (fun j d' => v (ix3 g j d')) d := rfl

/-! ## Batch and head merged -/

/-- The merged coordinate of batch `b` and head `h`: `16 b + h`. -/
def merge (b : Fin 2) (h : Fin 16) : Fin 32 := ⟨b.val * 16 + h.val, by have := b.isLt; have := h.isLt; omega⟩

variable {α : Type}

/-- A `[2, 16, 2048, n]` array re-laid as `[32, 2048, n]` reads, at `(16 b + h, i, d)`, the operand at `(b, h, i, d)`:
    the two indices have one row-major position. -/
theorem reshape_merge_apply {n : ℕ} (x : (⟨4, ![2, 16, 2048, n]⟩ : Shape).Idx → α)
    (hc : (⟨4, ![2, 16, 2048, n]⟩ : Shape).ShapeCasts ⟨3, ![32, 2048, n]⟩) (b : Fin 2) (h : Fin 16) (i : Fin 2048) (d : Fin n) :
    shapeCast ⟨3, ![32, 2048, n]⟩ x hc (ix3 (merge b h) i d) = x (ix4 b h i d) :=
  shapeCast_apply x hc _ _ (by
    rw [Shape.rowMajor_val_four, Shape.rowMajor_val_three]
    rfl)

/-- A `[32, 2048, n]` array re-laid as `[2, 16, 2048, n]` reads, at `(b, h, i, d)`, the operand at `(16 b + h, i, d)`. -/
theorem reshape_split_apply {n : ℕ} (y : (⟨3, ![32, 2048, n]⟩ : Shape).Idx → α)
    (hc : (⟨3, ![32, 2048, n]⟩ : Shape).ShapeCasts ⟨4, ![2, 16, 2048, n]⟩) (b : Fin 2) (h : Fin 16) (i : Fin 2048) (d : Fin n) :
    shapeCast ⟨4, ![2, 16, 2048, n]⟩ y hc (ix4 b h i d) = y (ix3 (merge b h) i d) :=
  shapeCast_apply y hc _ _ (by
    rw [Shape.rowMajor_val_four, Shape.rowMajor_val_three]
    rfl)

/-- Where the merged arguments are the split ones re-laid, the merged weights at `(16 b + h, i, j)` are the split
    weights at `(b, h, i, j)`. -/
theorem weights3_eq_weights4 (q3 k3 : A3) (q4 k4 : A4)
    (hq : ∀ b h i d, q3 (ix3 (merge b h) i d) = q4 (ix4 b h i d))
    (hk : ∀ b h i d, k3 (ix3 (merge b h) i d) = k4 (ix4 b h i d))
    (b : Fin 2) (h : Fin 16) (i j : Fin 2048) :
    weights3 q3 k3 (ix3 (merge b h) i j) = weights4 q4 k4 (ix4 b h i j) := by
  rw [weights3_ix3, weights4_ix4]
  simp only [hq, hk]

/-- The same for the output. -/
theorem output3_eq_output4 (q3 k3 v3 : A3) (q4 k4 v4 : A4)
    (hq : ∀ b h i d, q3 (ix3 (merge b h) i d) = q4 (ix4 b h i d))
    (hk : ∀ b h i d, k3 (ix3 (merge b h) i d) = k4 (ix4 b h i d))
    (hv : ∀ b h i d, v3 (ix3 (merge b h) i d) = v4 (ix4 b h i d))
    (b : Fin 2) (h : Fin 16) (i : Fin 2048) (d : Fin 64) :
    output3 q3 k3 v3 (ix3 (merge b h) i d) = output4 q4 k4 v4 (ix4 b h i d) := by
  rw [output3_ix3, output4_ix4]
  simp only [hq, hk, hv]

end Cert.AttnSpec

end
-- ==== Proof.RefIsSpec.lean ====
/-
  The reference computes the specification.

  Read one operation at a time (the generated index lemmas), the reference's weights at `(b, h, i, j)` are: the
  quotient by `8` of the inner product of query row `i` with key row `j` — the scaled score, since dividing by `8` is
  multiplying by `1/8` —; the row's maximum subtracted; the maximum of the shifted row, joined with `-∞`, subtracted
  again; the exponential; the quotient by the row's sum started from `0`. That is the arrangement `softmaxDiv` of the
  row's scores. The two reductions by `max` along the last axis are folds of `max` from the word `-∞` over that axis's
  coordinates, which is `rowMax` of the row.

  For finite queries and keys the scores are reals, so `softmaxDiv` is `softmaxMul`, the specification's weights; and
  the reference's output is the sum over keys of weight times value, the specification's output.
-/
import proofs.«132399_j9354438771232_2_alg».proof.Proof.Gen.ReferenceIdeal.Read
import proofs.«132399_j9354438771232_2_alg».proof.Proof.AttnSpec
import Idealize.ShloMosaic.PureOps.Ideal.Laws
import Idealize.ShloMosaic.PureOps.Reduce

noncomputable section

namespace Cert.AttnRef

open Cert.ReferenceIdeal Cert.ReferenceIdeal.Gen Cert.ReferenceIdeal.Read
open Idealize.ShloMosaic Idealize.ShloMosaic.ValueIdx Cert.AttnRow Cert.AttnSpec

/-- A reduction by `max` from the word `-∞` along the last axis of a `[2, 16, 2048, 2048]` array is, at `(b, h, i)`, the
    maximum of row `(b, h, i)`. -/
theorem reduce_max_row (x : (⟨S2x16x2048x2048, .f32⟩ : BufTy).Contents (Elt Ideal)) (b : Fin 2) (h : Fin 16) (p : Fin 2048) :
    Host.reduce (FloatOps.maximumf (F := Ideal) (φ := .f32)) x (constant (F := Ideal) S_ .f32 0xFF800000#32)
        reducesTo_S2x16x2048x2048_S2x16x2048_d3 h_S_ (ix3 b h p)
      = rowMax (fun j : Fin 2048 => x (ix4 b h p j)) := by
  rw [Host.reduce_eq_fold_single (FloatOps.maximumf (F := Ideal) (φ := .f32)) x _ reducesTo_S2x16x2048x2048_S2x16x2048_d3
    (by decide : S2x16x2048x2048.Reduces [3] S2x16x2048) h_S_]
  have hl : ∀ k : Fin 2048, (by decide : S2x16x2048x2048.Reduces [3] S2x16x2048).lift (ix3 b h p) k = ix4 b h p k :=
    fun k => funext fun a => Fin.ext (by match a with | ⟨0, _⟩ => rfl | ⟨1, _⟩ => rfl | ⟨2, _⟩ => rfl | ⟨3, _⟩ => rfl)
  unfold rowMax
  show Finset.fold max (Ideal.ofBits .f32 0xFF800000#32) _ _ = _
  rw [word_neg_inf]
  exact congrArg (Finset.fold max ⊥ · Finset.univ) (funext fun k => congrArg x (hl k))

/-- The reference's quotient of the inner product by `8`, at `(b, h, i, j)`, is the scaled score of query row `i` against
    key row `j`. -/
theorem ref_scores (x0 x1 : (⟨S2x16x2048x64, .f32⟩ : BufTy).Contents (Elt Ideal)) (b : Fin 2) (h : Fin 16) (p j : Fin 2048) :
    val_main_v2 (F := Ideal) x0 x1 (ix4 b h p j)
      = scores (fun d => x0 (ix4 b h p d)) (fun j' d => x1 (ix4 b h j' d)) j := by
  have el : ∀ k, lidx_main_v0 (ix4 b h p j) k = ix4 b h p k := fun k => funext fun a => Fin.ext (by
    match a with | ⟨0, _⟩ => rfl | ⟨1, _⟩ => rfl | ⟨2, _⟩ => rfl | ⟨3, _⟩ => rfl)
  have er : ∀ k, ridx_main_v0 (ix4 b h p j) k = ix4 b h j k := fun k => funext fun a => Fin.ext (by
    match a with | ⟨0, _⟩ => rfl | ⟨1, _⟩ => rfl | ⟨2, _⟩ => rfl | ⟨3, _⟩ => rfl)
  rw [val_main_v2_apply, val_main_v0_apply, val_main_v1_apply, val_main_cst_apply]
  simp only [el, er, Ideal.hostDivf_def, Ideal.ofBits_def]
  exact div_eight _

/-- From the scores of row `(b, h, i)` to the reference's weights there: the arrangement `softmaxDiv`. -/
theorem ref_weights_row (x0 x1 : (⟨S2x16x2048x64, .f32⟩ : BufTy).Contents (Elt Ideal)) (b : Fin 2) (h : Fin 16) (p : Fin 2048)
    (s : Fin 2048 → EReal) (h2 : ∀ j, val_main_v2 (F := Ideal) x0 x1 (ix4 b h p j) = s j) (j : Fin 2048) :
    val_main_v17 (F := Ideal) x0 x1 (ix4 b h p j) = softmaxDiv s j := by
  have e3 : ∀ j' : Fin 2048, idx_main_v4 (idx_main_v5 (ix4 b h p j')) = ix3 b h p := fun j' => funext fun a => Fin.ext (by
    match a with | ⟨0, _⟩ => rfl | ⟨1, _⟩ => rfl | ⟨2, _⟩ => rfl)
  have e9 : ∀ j' : Fin 2048, idx_main_v10 (idx_main_v11 (ix4 b h p j')) = ix3 b h p := fun j' => funext fun a => Fin.ext (by
    match a with | ⟨0, _⟩ => rfl | ⟨1, _⟩ => rfl | ⟨2, _⟩ => rfl)
  have e14 : ∀ j' : Fin 2048, idx_main_v15 (idx_main_v16 (ix4 b h p j')) = ix3 b h p := fun j' => funext fun a => Fin.ext (by
    match a with | ⟨0, _⟩ => rfl | ⟨1, _⟩ => rfl | ⟨2, _⟩ => rfl)
  have ek : ∀ k : Fin 2048, idx_main_v14 (ix3 b h p) k = ix4 b h p k := fun k => funext fun a => Fin.ext (by
    match a with | ⟨0, _⟩ => rfl | ⟨1, _⟩ => rfl | ⟨2, _⟩ => rfl | ⟨3, _⟩ => rfl)
  -- the first maximum
  have h3 : val_main_v3 (F := Ideal) x0 x1 (ix3 b h p) = rowMax s := by
    unfold val_main_v3 val_main_cst_0
    rw [reduce_max_row]
    exact congrArg rowMax (funext h2)
  -- the shifted row
  have h6 : ∀ j', val_main_v6 (F := Ideal) x0 x1 (ix4 b h p j') = shifted s j' := fun j' => by
    rw [val_main_v6_apply, val_main_v5_apply, val_main_v4_apply, e3, h3, h2]
    rfl
  -- the second maximum, joined with -∞
  have h7 : val_main_v7 (F := Ideal) x0 x1 (ix3 b h p) = rowMax (shifted s) := by
    unfold val_main_v7 val_main_cst_1
    rw [reduce_max_row]
    exact congrArg rowMax (funext h6)
  have h9 : val_main_v9 (F := Ideal) x0 x1 (ix3 b h p) = secondMax s := by
    rw [val_main_v9_apply, val_main_v8_apply, val_main_cst_2_apply, h7]
    show max (Ideal.ofBits .f32 0xFF800000#32) _ = _
    rw [word_neg_inf]
    rfl
  -- the exponentials and their sum
  have h13 : ∀ j', val_main_v13 (F := Ideal) x0 x1 (ix4 b h p j') = Ideal.exp (shifted s j' - secondMax s) := fun j' => by
    rw [val_main_v13_apply, val_main_v12_apply, val_main_v11_apply, val_main_v10_apply, e9, h9, h6]
    rfl
  have h14 : val_main_v14 (F := Ideal) x0 x1 (ix3 b h p) = 0 + ∑ j', Ideal.exp (shifted s j' - secondMax s) := by
    rw [val_main_v14_apply, val_main_cst_3_apply]
    simp only [ek, h13, Ideal.ofBits_def, Ideal.ofBits_zero_f32]
  rw [val_main_v17_apply, val_main_v16_apply, val_main_v15_apply, e14, h14, h13]
  rfl

/-- THE WEIGHTS: for finite queries and keys the reference's weights are the specification's. -/
theorem ref_weights (x0 x1 : (⟨S2x16x2048x64, .f32⟩ : BufTy).Contents (Elt Ideal))
    (hx0 : ∀ i, x0 i ≠ ⊤ ∧ x0 i ≠ ⊥) (hx1 : ∀ i, x1 i ≠ ⊤ ∧ x1 i ≠ ⊥) :
    val_main_v17 (F := Ideal) x0 x1 = weights4 x0 x1 := by
  funext i
  obtain ⟨b, h, p, j, rfl⟩ : ∃ (b : Fin 2) (h : Fin 16) (p j : Fin 2048), i = ix4 b h p j := ⟨i 0, i 1, i 2, i 3, eq_ix4 i⟩
  rw [ref_weights_row x0 x1 b h p _ (fun j' => ref_scores x0 x1 b h p j') j, weights4_ix4]
  unfold weightsRow
  rw [softmaxDiv_eq_softmaxMul _ (fun j' => scores_finite _ _ (fun d => hx0 _) (fun j'' d => hx1 _) j')]

/-- THE OUTPUT: for finite queries and keys the reference's output is the specification's. -/
theorem ref_output (x0 x1 x2 : (⟨S2x16x2048x64, .f32⟩ : BufTy).Contents (Elt Ideal))
    (hx0 : ∀ i, x0 i ≠ ⊤ ∧ x0 i ≠ ⊥) (hx1 : ∀ i, x1 i ≠ ⊤ ∧ x1 i ≠ ⊥) :
    val_main_v18 (F := Ideal) x0 x1 x2 = output4 x0 x1 x2 := by
  funext i
  obtain ⟨b, h, p, d, rfl⟩ : ∃ (b : Fin 2) (h : Fin 16) (p : Fin 2048) (d : Fin 64), i = ix4 b h p d := ⟨i 0, i 1, i 2, i 3, eq_ix4 i⟩
  rw [val_main_v18_apply, output4_ix4, ref_weights x0 x1 hx0 hx1]
  unfold outRow
  refine Finset.sum_congr rfl fun k _ => ?_
  have el : lidx_main_v18 (ix4 b h p d) k = ix4 b h p k := funext fun a => Fin.ext (by
    match a with | ⟨0, _⟩ => rfl | ⟨1, _⟩ => rfl | ⟨2, _⟩ => rfl | ⟨3, _⟩ => rfl)
  have er : ridx_main_v18 (ix4 b h p d) k = ix4 b h k d := funext fun a => Fin.ext (by
    match a with | ⟨0, _⟩ => rfl | ⟨1, _⟩ => rfl | ⟨2, _⟩ => rfl | ⟨3, _⟩ => rfl)
  rw [el, er, weights4_ix4]

end Cert.AttnRef

end
-- ==== Proof.LibKeepdims.lean ====
/-
  Two layout operations read at an index given by coordinates, for the column that a row-wise reduction with kept
  dimensions leaves: a vector `[a]` re-laid as the column `[a, 1]`, and a column `[a, 1]` repeated along the second axis
  to `[a, b]`. (The row forms `[a] → [1, a]` and `[1, b] → [a, b]` are in the library.) Both read the operand at the
  row coordinate alone.
-/
import Idealize.ShloMosaic.Lib.ValueLayout

namespace Cert.Keepdims

open Idealize.ShloMosaic Idealize.ShloMosaic.ValueIdx

variable {α : Type}

/-- An `[a]` array cast to the column `[a, 1]` reads, at `(i, u)`, the operand at `i`, whatever the unit coordinate `u`:
    the row-major position of `(i, u)` in `[a, 1]` is `i · 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the operand's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims
-- ==== Proof.Payload.lean ====
/-
  The kernel body's values, index by index.

  One launch of the body sees a block of 1024 query rows `[1, 1024, 64]`, all 2048 key rows and all 2048 value rows
  `[1, 2048, 64]` of one merged batch-and-head. It forms the scores — the product of the query block with the
  transposed keys, times `1/8` —, each row's maximum, the exponentials of the shifted scores, each row's sum, and the
  weights: the exponential times the reciprocal of the row's sum. It stores the weights, and their product with the
  values.

  The stages are named here (`stageScores`, `stageMax`, `stageExp`, `stageSum`, `stageWeights`) and the body's stored
  values are their composition by unfolding. Each stage is then read at an index given by coordinates: a matrix product
  into a zero accumulator is the sum over the contracted coordinate; a reduction along the second axis is the fold of
  `max`, or the sum, over that axis's coordinates; the column that a row reduction leaves, re-laid and repeated along
  the row, reads the reduction at the row's coordinate. Put together, row `p` of the stored weights is the
  specification's `weightsRow` of query row `p` against the keys, and row `p` of the stored output its `outRow`.
-/
import proofs.«132399_j9354438771232_2_alg».proof.Proof.Gen.KernelIdeal.Skeleton
import proofs.«132399_j9354438771232_2_alg».proof.Proof.AttnSpec
import proofs.«132399_j9354438771232_2_alg».proof.Proof.LibKeepdims
import Idealize.ShloMosaic.Lib.ValueLayout
import Idealize.ShloMosaic.Lib.ValueIdx
import Idealize.ShloMosaic.PureOps.Ideal.Laws

noncomputable section

namespace Cert.AttnKernel

open Cert.KernelIdeal Cert.KernelIdeal.Gen
open Idealize.ShloMosaic Idealize.ShloMosaic.ValueIdx Cert.AttnRow Cert.AttnSpec Cert.Keepdims

/-! ## The two matrix products -/

/-- The product of the query block with the transposed keys: `[1024, 64] × [64, 2048]`. -/
abbrev Dqk : DotDims S1024x64 S64x2048 S1024x2048 := dot_S1024x64_S64x2048_S1024x2048_1_0_0_1_n_n
/-- The product of the weights with the values: `[1024, 2048] × [2048, 64]`. -/
abbrev Dwv : DotDims S1024x2048 S2048x64 S1024x64 := dot_S1024x2048_S2048x64_S1024x64_1_0_0_1_n_n

theorem lhs_qk_0 (i : S1024x2048.Idx) (q : Dqk.contr.Idx) : (Dqk.lhsIdx i q 0).val = (i 0).val := by
  unfold DotDims.lhsIdx
  rw [dif_neg (show ¬(0 : Fin S1024x64.rank) ∈ Dqk.lhsBatch by decide),
    dif_pos (show (0 : Fin S1024x64.rank) ∈ Dqk.lhsNonContracting by decide)]
  rfl
theorem rhs_qk_1 (i : S1024x2048.Idx) (q : Dqk.contr.Idx) : (Dqk.rhsIdx i q 1).val = (i 1).val := by
  unfold DotDims.rhsIdx
  rw [dif_neg (show ¬(1 : Fin S64x2048.rank) ∈ Dqk.rhsBatch by decide),
    dif_pos (show (1 : Fin S64x2048.rank) ∈ Dqk.rhsNonContracting by decide)]
  rfl
theorem lhs_wv_0 (i : S1024x64.Idx) (q : Dwv.contr.Idx) : (Dwv.lhsIdx i q 0).val = (i 0).val := by
  unfold DotDims.lhsIdx
  rw [dif_neg (show ¬(0 : Fin S1024x2048.rank) ∈ Dwv.lhsBatch by decide),
    dif_pos (show (0 : Fin S1024x2048.rank) ∈ Dwv.lhsNonContracting by decide)]
  rfl
theorem rhs_wv_1 (i : S1024x64.Idx) (q : Dwv.contr.Idx) : (Dwv.rhsIdx i q 1).val = (i 1).val := by
  unfold DotDims.rhsIdx
  rw [dif_neg (show ¬(1 : Fin S2048x64.rank) ∈ Dwv.rhsBatch by decide),
    dif_pos (show (1 : Fin S2048x64.rank) ∈ Dwv.rhsNonContracting by decide)]
  rfl

/-- The first product into the zero accumulator, at `(p, j)`: the sum over the 64 contracted coordinates. -/
theorem matmul_qk_apply (l : FVec Ideal S1024x64 .f32) (r : FVec Ideal S64x2048 .f32) (p : Fin 1024) (j : Fin 2048) :
    matmul Dqk none l r (constant (F := Ideal) S1024x2048 .f32 0x00000000#32) (ix2 p j)
      = ∑ k : Fin 64, l (ix2 p k) * r (ix2 k j) := by
  refine (Ideal.matmul_constant_zero_apply Dqk none l r (ix2 p j)).trans ?_
  rw [← Equiv.sum_comp (contrEquiv1 Dqk 64 rfl rfl).symm]
  refine Finset.sum_congr rfl fun k _ => ?_
  have hk := contrEquiv1_symm_val Dqk 64 rfl rfl k
  have el : Dqk.lhsIdx (ix2 p j) ((contrEquiv1 Dqk 64 rfl rfl).symm k) = ix2 p k := funext fun a => Fin.ext (by
    match a with
    | ⟨0, _⟩ => exact lhs_qk_0 _ _
    | ⟨1, _⟩ => exact (Dqk.lhsIdx_val_of_single rfl _ _).trans hk)
  have er : Dqk.rhsIdx (ix2 p j) ((contrEquiv1 Dqk 64 rfl rfl).symm k) = ix2 k j := funext fun a => Fin.ext (by
    match a with
    | ⟨0, _⟩ => exact (Dqk.rhsIdx_val_of_single rfl _ _).trans hk
    | ⟨1, _⟩ => exact rhs_qk_1 _ _)
  rw [el, er]

/-- The second product into the zero accumulator, at `(p, d)`: the sum over the 2048 contracted coordinates. -/
theorem matmul_wv_apply (l : FVec Ideal S1024x2048 .f32) (r : FVec Ideal S2048x64 .f32) (p : Fin 1024) (d : Fin 64) :
    matmul Dwv none l r (constant (F := Ideal) S1024x64 .f32 0x00000000#32) (ix2 p d)
      = ∑ k : Fin 2048, l (ix2 p k) * r (ix2 k d) := by
  refine (Ideal.matmul_constant_zero_apply Dwv none l r (ix2 p d)).trans ?_
  rw [← Equiv.sum_comp (contrEquiv1 Dwv 2048 rfl rfl).symm]
  refine Finset.sum_congr rfl fun k _ => ?_
  have hk := contrEquiv1_symm_val Dwv 2048 rfl rfl k
  have el : Dwv.lhsIdx (ix2 p d) ((contrEquiv1 Dwv 2048 rfl rfl).symm k) = ix2 p k := funext fun a => Fin.ext (by
    match a with
    | ⟨0, _⟩ => exact lhs_wv_0 _ _
    | ⟨1, _⟩ => exact (Dwv.lhsIdx_val_of_single rfl _ _).trans hk)
  have er : Dwv.rhsIdx (ix2 p d) ((contrEquiv1 Dwv 2048 rfl rfl).symm k) = ix2 k d := funext fun a => Fin.ext (by
    match a with
    | ⟨0, _⟩ => exact (Dwv.rhsIdx_val_of_single rfl _ _).trans hk
    | ⟨1, _⟩ => exact rhs_wv_1 _ _)
  rw [el, er]

/-! ## The stages -/

/-- The scaled scores of the query block against the keys. -/
def stageScores (x0 : Vec Ideal S1x1024x64 .f32) (x1 : Vec Ideal S1x2048x64 .f32) : FVec Ideal S1024x2048 .f32 :=
  mulf (matmul Dqk none (shapeCast S1024x64 x0 shapeCasts_S1x1024x64_S1024x64 : FVec Ideal S1024x64 .f32)
      (transpose S64x2048 [1, 0] (shapeCast S2048x64 x1 shapeCasts_S1x2048x64_S2048x64 : FVec Ideal S2048x64 .f32)
        transposes_S2048x64_p1_0_S64x2048 : FVec Ideal S64x2048 .f32)
      (constant S1024x2048 .f32 0x00000000#32))
    (broadcast S1024x2048 (Scalar.ofBits .f32 0x3E000000#32))

/-- Each row's maximum. -/
def stageMax (S : FVec Ideal S1024x2048 .f32) : FVec Ideal S1024 .f32 :=
  multiReduction .maximumf [1] S1024 S 0xFF800000#32 reduces_S1024x2048_S1024 (.inl rfl) rfl

/-- The exponentials of the scores shifted by their row's maximum. -/
def stageExp (S : FVec Ideal S1024x2048 .f32) : FVec Ideal S1024x2048 .f32 :=
  exp (subf S (broadcastTo S1024x2048 (shapeCast S1024x1 (stageMax S) shapeCasts_S1024_S1024x1) broadcasts_S1024x1_S1024x2048))

/-- Each row's sum. -/
def stageSum (E : FVec Ideal S1024x2048 .f32) : FVec Ideal S1024 .f32 :=
  multiReduction .add [1] S1024 E 0x00000000#32 reduces_S1024x2048_S1024 (.inl rfl) rfl

/-- The weights: the exponential times the reciprocal of its row's sum. -/
def stageWeights (E : FVec Ideal S1024x2048 .f32) : FVec Ideal S1024x2048 .f32 :=
  mulf E (broadcastTo S1024x2048
    (divf (broadcast S1024x1 (Scalar.ofBits .f32 0x3F800000#32)) (shapeCast S1024x1 (stageSum E) shapeCasts_S1024_S1024x1))
    broadcasts_S1024x1_S1024x2048)

/-- The body's weights are the stages composed. -/
theorem pay1_eq (x0 : Vec Ideal S1x1024x64 .f32) (x1 : Vec Ideal S1x2048x64 .f32) :
    k0_pay1 (F := Ideal) x0 x1 = stageWeights (stageExp (stageScores x0 x1)) := rfl

/-! ## The stages at an index -/

theorem stageScores_apply (x0 : Vec Ideal S1x1024x64 .f32) (x1 : Vec Ideal S1x2048x64 .f32) (p : Fin 1024) (j : Fin 2048) :
    stageScores x0 x1 (ix2 p j)
      = scores (fun d => x0 (ix3 (0 : Fin 1) p d)) (fun j' d => x1 (ix3 (0 : Fin 1) j' d)) j := by
  unfold stageScores
  rw [mulf_apply, broadcast_apply, matmul_qk_apply]
  unfold scores
  refine congrArg (· * _) (Finset.sum_congr rfl fun k _ => ?_)
  rw [shapeCast_1ab_ab_apply, transpose_ix2_apply, shapeCast_1ab_ab_apply]

theorem stageMax_apply (S : FVec Ideal S1024x2048 .f32) (p : Fin 1024) :
    stageMax S (ix1 p) = rowMax (fun j : Fin 2048 => S (ix2 p j)) := by
  unfold stageMax
  refine (Ideal.multiReduction_maximumf_single S 0xFF800000#32 reduces_S1024x2048_S1024 (.inl rfl) rfl (ix1 p)).trans ?_
  have hl : ∀ k : Fin 2048, reduces_S1024x2048_S1024.lift (ix1 p) k = ix2 p k :=
    fun k => funext fun a => Fin.ext (by match a with | ⟨0, _⟩ => rfl | ⟨1, _⟩ => rfl)
  unfold rowMax
  show Finset.fold max (Ideal.ofBits .f32 0xFF800000#32) _ _ = _
  rw [word_neg_inf]
  exact congrArg (Finset.fold max ⊥ · Finset.univ) (funext fun k => congrArg S (hl k))

theorem stageExp_apply (S : FVec Ideal S1024x2048 .f32) (p : Fin 1024) (j : Fin 2048) :
    stageExp S (ix2 p j) = expRow (fun j' : Fin 2048 => S (ix2 p j')) j := by
  unfold stageExp expRow
  show Ideal.exp (S (ix2 p j) - broadcastTo S1024x2048 _ broadcasts_S1024x1_S1024x2048 (ix2 p j)) = _
  rw [broadcastTo_a1_ab_apply, shapeCast_a_a1_apply, stageMax_apply]

theorem stageSum_apply (E : FVec Ideal S1024x2048 .f32) (p : Fin 1024) :
    stageSum E (ix1 p) = ∑ j : Fin 2048, E (ix2 p j) := by
  unfold stageSum
  refine (Ideal.multiReduction_add_single E 0x00000000#32 reduces_S1024x2048_S1024 (.inl rfl) rfl (ix1 p)).trans ?_
  refine Finset.sum_congr rfl fun k _ => congrArg E (funext fun a => Fin.ext (by
    match a with | ⟨0, _⟩ => rfl | ⟨1, _⟩ => rfl))

theorem stageWeights_apply (E : FVec Ideal S1024x2048 .f32) (p : Fin 1024) (j : Fin 2048) :
    stageWeights E (ix2 p j) = E (ix2 p j) * Ideal.div 1 (∑ j' : Fin 2048, E (ix2 p j')) := by
  unfold stageWeights
  rw [mulf_apply, broadcastTo_a1_ab_apply, divf_apply, broadcast_apply, shapeCast_a_a1_apply, stageSum_apply]
  show _ * Ideal.div (Ideal.ofBits .f32 0x3F800000#32) _ = _
  rw [word_one]

/-! ## The stored values -/

/-- Row `p` of the body's weights is the specification's weights of query row `p` against the keys. -/
theorem pay1_apply (x0 : Vec Ideal S1x1024x64 .f32) (x1 : Vec Ideal S1x2048x64 .f32) (p : Fin 1024) (j : Fin 2048) :
    k0_pay1 (F := Ideal) x0 x1 (ix2 p j)
      = weightsRow (fun d => x0 (ix3 (0 : Fin 1) p d)) (fun j' d => x1 (ix3 (0 : Fin 1) j' d)) j := by
  rw [pay1_eq, stageWeights_apply]
  simp only [stageExp_apply]
  have hs : (fun j' : Fin 2048 => stageScores x0 x1 (ix2 p j'))
      = scores (fun d => x0 (ix3 (0 : Fin 1) p d)) (fun j' d => x1 (ix3 (0 : Fin 1) j' d)) :=
    funext fun j' => stageScores_apply x0 x1 p j'
  rw [hs]
  rfl

/-- The stored weights block, at `(u, p, j)`. -/
theorem pay3_apply (x0 : Vec Ideal S1x1024x64 .f32) (x1 : Vec Ideal S1x2048x64 .f32) (u : Fin 1) (p : Fin 1024) (j : Fin 2048) :
    k0_pay3 (F := Ideal) x0 x1 (ix3 u p j)
      = weightsRow (fun d => x0 (ix3 (0 : Fin 1) p d)) (fun j' d => x1 (ix3 (0 : Fin 1) j' d)) j := by
  unfold k0_pay3
  show shapeCast S1x1024x2048 (k0_pay1 (F := Ideal) x0 x1) shapeCasts_S1024x2048_S1x1024x2048 (ix3 u p j) = _
  rw [shapeCast_ab_1ab_apply, pay1_apply]

/-- The stored output block, at `(u, p, d)`: the weights of row `p` against the values. -/
theorem pay2_apply (x0 : Vec Ideal S1x1024x64 .f32) (x1 x2 : Vec Ideal S1x2048x64 .f32) (u : Fin 1) (p : Fin 1024) (d : Fin 64) :
    k0_pay2 (F := Ideal) x0 x1 x2 (ix3 u p d)
      = outRow (fun d' => x0 (ix3 (0 : Fin 1) p d')) (fun j d' => x1 (ix3 (0 : Fin 1) j d')) (fun j d' => x2 (ix3 (0 : Fin 1) j d')) d := by
  unfold k0_pay2
  show shapeCast S1x1024x64 (matmul Dwv none (k0_pay1 (F := Ideal) x0 x1) (shapeCast S2048x64 x2 shapeCasts_S1x2048x64_S2048x64)
      (constant S1024x64 .f32 0x00000000#32)) shapeCasts_S1024x64_S1x1024x64 (ix3 u p d) = _
  rw [shapeCast_ab_1ab_apply, matmul_wv_apply]
  unfold outRow
  refine Finset.sum_congr rfl fun k _ => ?_
  rw [pay1_apply, shapeCast_1ab_ab_apply]

end Cert.AttnKernel

end
-- ==== Proof.KernelValue.lean ====
/-
  From the body's blocks to the kernel's two results.

  The grid has 64 points `(g, h)`: `g` one of the 32 merged batch-and-heads, `h` one of two halves of the 2048 query
  rows. At a point the query window holds rows `1024 h … 1024 h + 1023` of `g`, the key and value windows all rows of
  `g`, and the two output windows write back rows `1024 h …` of `g`. So what a point writes back is the block of the
  rank-3 specification (`weights3`, `output3`) of the arrays the region finds: a row of the specification needs only its
  own query row and the keys and values of its own `g`, and the point has exactly those. The 64 blocks tile each output
  array — the point that covers row `r` of `g` is `(g, r / 1024)` — so each array ends as the specification whole.

  Around the region, @main re-lays the three arguments from `[2, 16, 2048, 64]` to `[32, 2048, 64]` before and the two
  outputs back after; read at an index with batch and head apart these are the rank-4 specification of the arguments.
-/
import proofs.«132399_j9354438771232_2_alg».proof.Proof.Gen.KernelIdeal.Frame
import proofs.«132399_j9354438771232_2_alg».proof.Proof.Payload
import Idealize.ShloMosaic.Lib.Pipeline.Value
import Idealize.ShloMosaic.Lib.StableHlo.Run

set_option maxRecDepth 16384

noncomputable section

namespace Cert.AttnKernel

open Cert.KernelIdeal Cert.KernelIdeal.Gen
open Idealize.ShloMosaic Idealize.ShloMosaic.TcCoe Idealize.ShloMosaic.ValueIdx Idealize.SL.Sem Idealize.ShloMosaic.StableHlo
open Cert.AttnSpec
open Idealize.ShloMosaic.Pipeline (Dat Cfg Window)

variable (m : (ℓ : Loc nD τ sig) → Buf (Elt Ideal) ℓ) (ρ : Dev nD → PrngReg)

/-! ## The schedule of the windows -/

theorem zero3 : (![0, 0, 0] : Fin 3 → Nat) = fun _ => 0 := funext fun a => by fin_cases a <;> rfl

/-- The printed index maps, decided over the grid: every window sits at the weights window's batch-and-head; the query
    and output windows also at its half; the key and value windows at the top; all at column block 0. -/
theorem idx_facts : ∀ t : Fin cfg0.N,
    win0_0.index t (0 : Fin 3) = win0_4.index t (0 : Fin 3) ∧ win0_0.index t (1 : Fin 3) = win0_4.index t (1 : Fin 3)
    ∧ win0_0.index t (2 : Fin 3) = 0
    ∧ win0_1.index t (0 : Fin 3) = win0_4.index t (0 : Fin 3) ∧ win0_1.index t (1 : Fin 3) = 0 ∧ win0_1.index t (2 : Fin 3) = 0
    ∧ win0_2.index t (0 : Fin 3) = win0_4.index t (0 : Fin 3) ∧ win0_2.index t (1 : Fin 3) = 0 ∧ win0_2.index t (2 : Fin 3) = 0
    ∧ win0_3.index t (0 : Fin 3) = win0_4.index t (0 : Fin 3) ∧ win0_3.index t (1 : Fin 3) = win0_4.index t (1 : Fin 3)
    ∧ win0_3.index t (2 : Fin 3) = 0
    ∧ win0_4.index t (0 : Fin 3) ≤ 31 ∧ win0_4.index t (1 : Fin 3) ≤ 1 ∧ win0_4.index t (2 : Fin 3) = 0 :=
  (by decide +kernel : ∀ t : Fin grid0.N, _)

/-- Every batch-and-head and half is some point's. -/
theorem idx_onto : ∀ (q0 : Fin 32) (q1 : Fin 2), ∃ t : Fin cfg0.N, win0_4.index t = ![q0.val, q1.val, 0] :=
  (by decide +kernel : ∀ (q0 : Fin 32) (q1 : Fin 2), ∃ t : Fin grid0.N, win0_4.index t = ![q0.val, q1.val, 0])

/-- The merged batch-and-head of point `t`. -/
def grp (t : Fin cfg0.N) : Fin 32 := ⟨win0_4.index t (0 : Fin 3), by have := (idx_facts t).2.2.2.2.2.2.2.2.2.2.2.2.1; omega⟩
/-- The array row of row `p` of the point's query block. -/
def row (t : Fin cfg0.N) (p : Fin 1024) : Fin 2048 :=
  ⟨win0_4.index t (1 : Fin 3) * 1024 + p.val, by have := (idx_facts t).2.2.2.2.2.2.2.2.2.2.2.2.2.1; have := p.isLt; omega⟩

/-! ## The input blocks -/

/-- The query block at point `t`: rows `row t p` of batch-and-head `grp t`. -/
theorem iblk0_apply (c : Dev nD) (t : Fin cfg0.N) (p : Fin 1024) (d : Fin 64) :
    iblk m c 0 t (ix3 (0 : Fin 1) p d) = V m c main_v0 (ix3 (grp t) (row t p) d) := by
  show V m c main_v0 (((cfg0.win 0).blk t).view.emb (ix3 (0 : Fin 1) p d)) = _
  refine congrArg _ (funext fun a => Fin.ext ?_)
  obtain ⟨e00, e01, e02, -⟩ := idx_facts t
  match a with
  | ⟨0, _⟩ => show win0_0.index t (0 : Fin 3) * 1 + 1 * 0 = win0_4.index t (0 : Fin 3); omega
  | ⟨1, _⟩ => show win0_0.index t (1 : Fin 3) * 1024 + 1 * p.val = win0_4.index t (1 : Fin 3) * 1024 + p.val; omega
  | ⟨2, _⟩ => show win0_0.index t (2 : Fin 3) * 64 + 1 * d.val = d.val; omega

/-- The key block at point `t`: every row of batch-and-head `grp t`. -/
theorem iblk1_apply (c : Dev nD) (t : Fin cfg0.N) (j : Fin 2048) (d : Fin 64) :
    iblk m c 1 t (ix3 (0 : Fin 1) j d) = V m c main_v1 (ix3 (grp t) j d) := by
  show V m c main_v1 (((cfg0.win 1).blk t).view.emb (ix3 (0 : Fin 1) j d)) = _
  refine congrArg _ (funext fun a => Fin.ext ?_)
  obtain ⟨-, -, -, e10, e11, e12, -⟩ := idx_facts t
  match a with
  | ⟨0, _⟩ => show win0_1.index t (0 : Fin 3) * 1 + 1 * 0 = win0_4.index t (0 : Fin 3); omega
  | ⟨1, _⟩ => show win0_1.index t (1 : Fin 3) * 2048 + 1 * j.val = j.val; omega
  | ⟨2, _⟩ => show win0_1.index t (2 : Fin 3) * 64 + 1 * d.val = d.val; omega

/-- The value block at point `t`: every row of batch-and-head `grp t`. -/
theorem iblk2_apply (c : Dev nD) (t : Fin cfg0.N) (j : Fin 2048) (d : Fin 64) :
    iblk m c 2 t (ix3 (0 : Fin 1) j d) = V m c main_v2 (ix3 (grp t) j d) := by
  show V m c main_v2 (((cfg0.win 2).blk t).view.emb (ix3 (0 : Fin 1) j d)) = _
  refine congrArg _ (funext fun a => Fin.ext ?_)
  obtain ⟨-, -, -, -, -, -, e20, e21, e22, -⟩ := idx_facts t
  match a with
  | ⟨0, _⟩ => show win0_2.index t (0 : Fin 3) * 1 + 1 * 0 = win0_4.index t (0 : Fin 3); omega
  | ⟨1, _⟩ => show win0_2.index t (1 : Fin 3) * 2048 + 1 * j.val = j.val; omega
  | ⟨2, _⟩ => show win0_2.index t (2 : Fin 3) * 64 + 1 * d.val = d.val; omega

/-! ## What a point writes back -/

/-- Point `t` writes back, through the weights window, its block of the rank-3 weights of the arrays the region finds. -/
theorem flushed_weights (c : Dev nD) (t : Fin cfg0.N) :
    (dats m 0 c).flushed 4 t = ((cfg0.win 4).blk t).view.read (Elt Ideal) (weights3 (V m c main_v0) (V m c main_v1)) := by
  show (cfg0.win 4).cut (grid0.coords t) ((dats m 0 c).after 4 t) = _
  rw [after0_4]
  unfold out0_4
  rw [View.canon_unit_zero zero3]
  simp only [View.ld_unit_zero (S := S1x1024x64) zero3, View.ld_unit_zero (S := S1x2048x64) zero3]
  funext y
  obtain ⟨u, p, j, rfl⟩ : ∃ (u : Fin 1) (p : Fin 1024) (j : Fin 2048), y = ix3 u p j := ⟨y 0, y 1, y 2, eq_ix3 y⟩
  show k0_pay3 (F := Ideal) (iblk m c 0 t) (iblk m c 1 t) (ix3 u p j)
    = weights3 (V m c main_v0) (V m c main_v1) (((cfg0.win 4).blk t).view.emb (ix3 u p j))
  have hemb : ((cfg0.win 4).blk t).view.emb (ix3 u p j) = ix3 (grp t) (row t p) j := funext fun a => Fin.ext (by
    have hu : u.val = 0 := by omega
    obtain ⟨-, -, -, -, -, -, -, -, -, -, -, -, -, -, e42⟩ := idx_facts t
    match a with
    | ⟨0, _⟩ => show win0_4.index t (0 : Fin 3) * 1 + 1 * u.val = win0_4.index t (0 : Fin 3); omega
    | ⟨1, _⟩ => show win0_4.index t (1 : Fin 3) * 1024 + 1 * p.val = win0_4.index t (1 : Fin 3) * 1024 + p.val; omega
    | ⟨2, _⟩ => show win0_4.index t (2 : Fin 3) * 2048 + 1 * j.val = j.val; omega)
  rw [hemb, weights3_ix3]
  refine (pay3_apply (iblk m c 0 t) (iblk m c 1 t) u p j).trans ?_
  exact congrArg₂ (fun a b => weightsRow a b j) (funext fun d => iblk0_apply m c t p d)
    (funext fun j' => funext fun d => iblk1_apply m c t j' d)

/-- Point `t` writes back, through the output window, its block of the rank-3 output of the arrays the region finds. -/
theorem flushed_output (c : Dev nD) (t : Fin cfg0.N) :
    (dats m 0 c).flushed 3 t
      = ((cfg0.win 3).blk t).view.read (Elt Ideal) (output3 (V m c main_v0) (V m c main_v1) (V m c main_v2)) := by
  show (cfg0.win 3).cut (grid0.coords t) ((dats m 0 c).after 3 t) = _
  rw [after0_3]
  unfold out0_3
  rw [View.canon_unit_zero zero3]
  simp only [View.ld_unit_zero (S := S1x1024x64) zero3, View.ld_unit_zero (S := S1x2048x64) zero3]
  funext y
  obtain ⟨u, p, d, rfl⟩ : ∃ (u : Fin 1) (p : Fin 1024) (d : Fin 64), y = ix3 u p d := ⟨y 0, y 1, y 2, eq_ix3 y⟩
  show k0_pay2 (F := Ideal) (iblk m c 0 t) (iblk m c 1 t) (iblk m c 2 t) (ix3 u p d)
    = output3 (V m c main_v0) (V m c main_v1) (V m c main_v2) (((cfg0.win 3).blk t).view.emb (ix3 u p d))
  have hemb : ((cfg0.win 3).blk t).view.emb (ix3 u p d) = ix3 (grp t) (row t p) d := funext fun a => Fin.ext (by
    have hu : u.val = 0 := by omega
    obtain ⟨-, -, -, -, -, -, -, -, -, e30, e31, e32, -⟩ := idx_facts t
    match a with
    | ⟨0, _⟩ => show win0_3.index t (0 : Fin 3) * 1 + 1 * u.val = win0_4.index t (0 : Fin 3); omega
    | ⟨1, _⟩ => show win0_3.index t (1 : Fin 3) * 1024 + 1 * p.val = win0_4.index t (1 : Fin 3) * 1024 + p.val; omega
    | ⟨2, _⟩ => show win0_3.index t (2 : Fin 3) * 64 + 1 * d.val = d.val; omega)
  rw [hemb, output3_ix3]
  refine (pay2_apply (iblk m c 0 t) (iblk m c 1 t) (iblk m c 2 t) u p d).trans ?_
  have h0 : (fun d' => iblk m c 0 t (ix3 (0 : Fin 1) p d')) = fun d' => V m c main_v0 (ix3 (grp t) (row t p) d') :=
    funext fun d' => iblk0_apply m c t p d'
  have h1 : (fun j d' => iblk m c 1 t (ix3 (0 : Fin 1) j d')) = fun j d' => V m c main_v1 (ix3 (grp t) j d') :=
    funext fun j' => funext fun d' => iblk1_apply m c t j' d'
  have h2 : (fun j d' => iblk m c 2 t (ix3 (0 : Fin 1) j d')) = fun j d' => V m c main_v2 (ix3 (grp t) j d') :=
    funext fun j' => funext fun d' => iblk2_apply m c t j' d'
  rw [h0, h1, h2]

/-! ## The blocks tile the arrays -/

theorem mem_blk_weights (t : Fin cfg0.N) (i : S32x2048x2048.Idx) :
    i ∈ ((cfg0.win 4).blk t).view.set ↔ ∀ a : Fin 3, win0_4.index t a * S1x1024x2048.size a ≤ (i a).val
      ∧ (i a).val < win0_4.index t a * S1x1024x2048.size a + S1x1024x2048.size a := by
  show i ∈ ((View.whole main_v3_1).slice (win0_4.rect t)).set ↔ _
  rw [View.set_slice_whole, Rect.mem_set_unit]
  exact Iff.rfl

theorem mem_blk_output (t : Fin cfg0.N) (i : S32x2048x64.Idx) :
    i ∈ ((cfg0.win 3).blk t).view.set ↔ ∀ a : Fin 3, win0_3.index t a * S1x1024x64.size a ≤ (i a).val
      ∧ (i a).val < win0_3.index t a * S1x1024x64.size a + S1x1024x64.size a := by
  show i ∈ ((View.whole main_v3_0).slice (win0_3.rect t)).set ↔ _
  rw [View.set_slice_whole, Rect.mem_set_unit]
  exact Iff.rfl

/-- Every index of the weights array is in the block of the point at its batch-and-head and its row's half. -/
theorem cover_weights (i : S32x2048x2048.Idx) :
    ∃ t : Fin cfg0.N, (cfg0.win 4).flush t = true ∧ i ∈ ((cfg0.win 4).blk t).view.set := by
  have hi0 : (i 0).val < 32 := (i 0).isLt
  have hi1 : (i 1).val < 2048 := (i 1).isLt
  have hi2 : (i 2).val < 2048 := (i 2).isLt
  obtain ⟨t, ht⟩ := idx_onto ⟨(i 0).val, hi0⟩ ⟨(i 1).val / 1024, by omega⟩
  have q0 : win0_4.index t (0 : Fin 3) = (i 0).val := congrFun ht 0
  have q1 : win0_4.index t (1 : Fin 3) = (i 1).val / 1024 := congrFun ht 1
  have q2 : win0_4.index t (2 : Fin 3) = 0 := congrFun ht 2
  refine ⟨t, flush0_4 t, ?_⟩
  rw [mem_blk_weights]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 1024 ≤ (i 1).val ∧ (i 1).val < win0_4.index t (1 : Fin 3) * 1024 + 1024; omega
  | ⟨2, _⟩ => show win0_4.index t (2 : Fin 3) * 2048 ≤ (i 2).val ∧ (i 2).val < win0_4.index t (2 : Fin 3) * 2048 + 2048; omega

/-- Every index of the output array likewise. -/
theorem cover_output (i : S32x2048x64.Idx) :
    ∃ t : Fin cfg0.N, (cfg0.win 3).flush t = true ∧ i ∈ ((cfg0.win 3).blk t).view.set := by
  have hi0 : (i 0).val < 32 := (i 0).isLt
  have hi1 : (i 1).val < 2048 := (i 1).isLt
  have hi2 : (i 2).val < 64 := (i 2).isLt
  obtain ⟨t, ht⟩ := idx_onto ⟨(i 0).val, hi0⟩ ⟨(i 1).val / 1024, by omega⟩
  have q0 : win0_4.index t (0 : Fin 3) = (i 0).val := congrFun ht 0
  have q1 : win0_4.index t (1 : Fin 3) = (i 1).val / 1024 := congrFun ht 1
  obtain ⟨-, -, -, -, -, -, -, -, -, e30, e31, e32, -⟩ := idx_facts t
  refine ⟨t, flush0_3 t, ?_⟩
  rw [mem_blk_output]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1024 ≤ (i 1).val ∧ (i 1).val < win0_3.index t (1 : Fin 3) * 1024 + 1024; omega
  | ⟨2, _⟩ => show win0_3.index t (2 : Fin 3) * 64 ≤ (i 2).val ∧ (i 2).val < win0_3.index t (2 : Fin 3) * 64 + 64; omega

/-- The weights array after the region. -/
theorem final_weights (c : Dev nD) : (dats m 0 c).arrAt 4 cfg0.N = weights3 (V m c main_v0) (V m c main_v1) :=
  (dats m 0 c).arrAt_eq_of_cover 4 (weights3 (V m c main_v0) (V m c main_v1)) (fun t _ => flushed_weights m c t) cover_weights

/-- The output array after the region. -/
theorem final_output (c : Dev nD) :
    (dats m 0 c).arrAt 3 cfg0.N = output3 (V m c main_v0) (V m c main_v1) (V m c main_v2) :=
  (dats m 0 c).arrAt_eq_of_cover 3 (output3 (V m c main_v0) (V m c main_v1) (V m c main_v2))
    (fun t _ => flushed_output m c t) cover_output

/-! ## The host operations around the region -/

theorem V_main_v0 (c : Dev nD) :
    V m c main_v0 = shapeCast S32x2048x64 (m ((c : Thread nD τ).loc main_arg0)) shapeCasts_S2x16x2048x64_S32x2048x64 := by
  show StableHlo.after hostOps0 (fun b => m (c, b)) (Proc.devRef .tc main_v0) = _
  after_results
  rfl
theorem V_main_v1 (c : Dev nD) :
    V m c main_v1 = shapeCast S32x2048x64 (m ((c : Thread nD τ).loc main_arg1)) shapeCasts_S2x16x2048x64_S32x2048x64 := by
  show StableHlo.after hostOps0 (fun b => m (c, b)) (Proc.devRef .tc main_v1) = _
  after_results
  rfl
theorem V_main_v2 (c : Dev nD) :
    V m c main_v2 = shapeCast S32x2048x64 (m ((c : Thread nD τ).loc main_arg2)) shapeCasts_S2x16x2048x64_S32x2048x64 := by
  show StableHlo.after hostOps0 (fun b => m (c, b)) (Proc.devRef .tc main_v2) = _
  after_results
  rfl

theorem tail_v5 (c : Dev nD) :
    Pipeline.afterTail₀ cfgs (dats m) 0 (V0 m) [hostOps1] c main_v5
      = shapeCast S2x16x2048x2048 ((dats m 0 c).arrAt 4 cfg0.N) shapeCasts_S32x2048x2048_S2x16x2048x2048 := by
  unfold Pipeline.afterTail₀
  show StableHlo.after hostOps1 _ (Proc.devRef .tc main_v5) = _
  after_results
  rw [Pipeline.withArrays_arr spec0 launch0.win.arr_inj c (V0 m c) (fun w => (dats m 0 c).arrAt w cfg0.N) 4]
  rfl

theorem tail_v4 (c : Dev nD) :
    Pipeline.afterTail₀ cfgs (dats m) 0 (V0 m) [hostOps1] c main_v4
      = shapeCast S2x16x2048x64 ((dats m 0 c).arrAt 3 cfg0.N) shapeCasts_S32x2048x64_S2x16x2048x64 := by
  unfold Pipeline.afterTail₀
  show StableHlo.after hostOps1 _ (Proc.devRef .tc main_v4) = _
  after_results
  rw [Pipeline.withArrays_arr spec0 launch0.win.arr_inj c (V0 m c) (fun w => (dats m 0 c).arrAt w cfg0.N) 3]
  rfl

/-! ## The results -/

/-- The kernel's second result is the rank-4 weights of the arguments. -/
theorem result_weights (c : Dev nD) :
    Pipeline.afterTail₀ cfgs (dats m) 0 (V0 m) [hostOps1] c main_v5
      = weights4 (m ((c : Thread nD τ).loc main_arg0)) (m ((c : Thread nD τ).loc main_arg1)) := by
  rw [tail_v5, final_weights, V_main_v0, V_main_v1]
  funext i
  obtain ⟨b, h, p, j, rfl⟩ : ∃ (b : Fin 2) (h : Fin 16) (p j : Fin 2048), i = ix4 b h p j := ⟨i 0, i 1, i 2, i 3, eq_ix4 i⟩
  rw [reshape_split_apply]
  exact weights3_eq_weights4 _ _ _ _ (fun b h i d => reshape_merge_apply _ _ b h i d)
    (fun b h i d => reshape_merge_apply _ _ b h i d) b h p j

/-- The kernel's first result is the rank-4 output of the arguments. -/
theorem result_output (c : Dev nD) :
    Pipeline.afterTail₀ cfgs (dats m) 0 (V0 m) [hostOps1] c main_v4
      = output4 (m ((c : Thread nD τ).loc main_arg0)) (m ((c : Thread nD τ).loc main_arg1)) (m ((c : Thread nD τ).loc main_arg2)) := by
  rw [tail_v4, final_output, V_main_v0, V_main_v1, V_main_v2]
  funext i
  obtain ⟨b, h, p, d, rfl⟩ : ∃ (b : Fin 2) (h : Fin 16) (p : Fin 2048) (d : Fin 64), i = ix4 b h p d := ⟨i 0, i 1, i 2, i 3, eq_ix4 i⟩
  rw [reshape_split_apply]
  exact output3_eq_output4 _ _ _ _ _ _ (fun b h i d => reshape_merge_apply _ _ b h i d)
    (fun b h i d => reshape_merge_apply _ _ b h i d) (fun b h i d => reshape_merge_apply _ _ b h i d) b h p d

/-! ## The run, read -/

/-- Every weakly fair execution of the idealized kernel terminates with its two results at the specification of the
    arguments and the arguments unchanged. -/
theorem run : θ_run defs (onTc (τ := τ) (main (F := Ideal))) ⟨m, fun _ => 0, ρ⟩ fun r => ∀ c : Dev nD,
      r.2.mem ((c.tc : Thread nD τ).loc main_v4)
        = output4 (m ((c.tc : Thread nD τ).loc main_arg0)) (m ((c.tc : Thread nD τ).loc main_arg1)) (m ((c.tc : Thread nD τ).loc main_arg2))
      ∧ r.2.mem ((c.tc : Thread nD τ).loc main_v5)
        = weights4 (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v4 (Pipeline.mem_restRefs_of main_v4 (by decide) (by decide))).trans (result_output m c),
      ((h c).2 main_v5 (Pipeline.mem_restRefs_of main_v5 (by decide) (by decide))).trans (result_weights m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.AttnKernel

end
-- ==== Proof.Finite.lean ====
/-
  The precondition, read back: every query and every key entry is a real number.

  The printed precondition is the conjunction of three tests, one per argument: the array of comparisons `|x| < +∞`,
  reduced by `and` over every axis from the constant `true`. The claim assumes the result is `true`. A conjunction of
  words is `1` only if both are; a reduction by `and` into a single result is `1` only if every element is; and
  `|x| < +∞` holds of an extended real only if it is neither infinity.
-/
import proofs.«132399_j9354438771232_2_alg».proof.Proof.Gen.Pre_finite_inputs
import proofs.«132399_j9354438771232_2_alg».proof.Proof.LibFinite
import Idealize.ShloMosaic.Lib.ReduceAll
import Idealize.ShloMosaic.Lib.ValueIdx

noncomputable section

namespace Cert.AttnFinite

open Idealize.ShloMosaic Cert.Pre_finite_inputs Cert.Pre_finite_inputs.Gen

instance : Subsingleton S_.Idx := ⟨fun a b => funext fun d => d.elim0⟩

/-- One argument's test: if the reduction by `and` of `|x| < +∞` is `true`, every entry of `x` is a real. -/
theorem all_finite (x : FVec Ideal S2x16x2048x64 .f32)
    (h : Host.reduce IntOp.andi
        (cmpf .olt (Host.absf x) (broadcastInDim S2x16x2048x64 ![] bcast_S_S2x16x2048x64 (constant (F := Ideal) S_ .f32 0x7F800000#32)))
        (constantI S_ 1 1#1) reducesTo_S2x16x2048x64_S_d0_1_2_3 h_S_ ValueIdx.ix0 = 1#1)
    (i : S2x16x2048x64.Idx) : x i ≠ ⊤ ∧ x i ≠ ⊥ :=
  Cert.LibFinite.finite_of_abs_lt (x i) (Host.reduce_andi_all _ _ _ _ _ h i)

/-- The precondition makes every query entry and every key entry a real. -/
theorem finite_of_pre (x0 x1 x2 : FVec Ideal S2x16x2048x64 .f32)
    (h : Cert.Pre_finite_inputs.fn (F := Ideal) x0 x1 x2 = fun _ => 1#1) :
    (∀ i, x0 i ≠ ⊤ ∧ x0 i ≠ ⊥) ∧ (∀ i, x1 i ≠ ⊤ ∧ x1 i ≠ ⊥) := by
  have h0 := congrFun h ValueIdx.ix0
  unfold Cert.Pre_finite_inputs.fn at h0
  obtain ⟨h01, -⟩ := IntOp.andi_eq_one.1 (show IntOp.andi _ _ = 1#1 from h0)
  obtain ⟨hA, hB⟩ := IntOp.andi_eq_one.1 (show IntOp.andi _ _ = 1#1 from h01)
  exact ⟨all_finite x0 hA, all_finite x1 hB⟩

end Cert.AttnFinite

end
-- ==== Proof.lean ====
/-
  Scaled dot-product attention: the kernel against its reference, on the extended reals.

  Both programs take queries, keys and values of shape `[2, 16, 2048, 64]` and return the attention output and the
  attention weights. For one query row `q` against the keys `K` and values `V` of its batch and head, with scores
  `s j = (∑ d, q d * K j d) / 8`:

  * the kernel forms `exp (s j - max s)`, multiplies by the reciprocal of the row's sum, and takes the product with `V`;
    it scales by the constant `1/8`, works on arrays with batch and head merged, and visits them in 64 blocks;
  * the reference divides by `8`, subtracts the row's maximum, then applies a softmax that subtracts the maximum of
    the shifted row once more and divides by the sum.

  These are one function of the arguments when queries and keys are finite: the scores are then real numbers, the
  shifted row's maximum is `0`, so the second subtraction changes nothing, and the sum is a positive real, so dividing
  by it is multiplying by its reciprocal; dividing by `8` is multiplying by `1/8` on every extended real. At an
  infinity `∞ - ∞` is not `0` and the identity fails, which is where the precondition is used. Sums are finite sums in
  a commutative monoid, so the order of accumulation and the tiling do not matter.

  The modules: `SoftmaxRow` (the law for one row), `AttnSpec` (the specification, for both index types),
  `RefIsSpec` (the reference computes it), `Payload` (the kernel body computes a block of it), `KernelValue` (the
  blocks tile the arrays; the re-laying around the region), `Finite` (the precondition read back). The three frame
  claims are the generated frame runs; the idealization rewrote nothing, so `preserves` is trivial.
-/
import proofs.«132399_j9354438771232_2_alg».proof.Defs
import proofs.«132399_j9354438771232_2_alg».proof.Proof.Gen.Kernel
import proofs.«132399_j9354438771232_2_alg».proof.Proof.Gen.Kernel.Skeleton
import proofs.«132399_j9354438771232_2_alg».proof.Proof.Gen.Kernel.Launch
import proofs.«132399_j9354438771232_2_alg».proof.Proof.Gen.Kernel.Points
import proofs.«132399_j9354438771232_2_alg».proof.Proof.Gen.Kernel.Frame
import proofs.«132399_j9354438771232_2_alg».proof.Proof.Gen.KernelIdeal
import proofs.«132399_j9354438771232_2_alg».proof.Proof.Gen.KernelIdeal.Skeleton
import proofs.«132399_j9354438771232_2_alg».proof.Proof.Gen.KernelIdeal.Launch
import proofs.«132399_j9354438771232_2_alg».proof.Proof.Gen.KernelIdeal.Points
import proofs.«132399_j9354438771232_2_alg».proof.Proof.Gen.KernelIdeal.Frame
import proofs.«132399_j9354438771232_2_alg».proof.Proof.Gen.ReferenceIdeal
import proofs.«132399_j9354438771232_2_alg».proof.Proof.Gen.ReferenceIdeal.Run
import proofs.«132399_j9354438771232_2_alg».proof.Proof.Gen.ReferenceIdeal.Read
import proofs.«132399_j9354438771232_2_alg».proof.Proof.Gen.Pre_finite_inputs
import proofs.«132399_j9354438771232_2_alg».proof.Proof.RefIsSpec
import proofs.«132399_j9354438771232_2_alg».proof.Proof.KernelValue
import proofs.«132399_j9354438771232_2_alg».proof.Proof.Finite
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- The idealized kernel runs and leaves its arguments unchanged. -/
theorem frame_kernelIdeal : Cert.frame_KernelIdeal := fun m ρ _ => Cert.KernelIdeal.Gen.frame m ρ

/-- The reference runs and leaves its arguments unchanged: its run, with the results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- From arguments that agree and are finite, both programs end with the specification's output and weights of the
    arguments: the kernel by its run read through its blocks, the reference by its run read one operation at a time
    and the law that joins the two arrangements of a row's softmax. -/
theorem algebraic : Cert.algebraic_KernelIdeal_ReferenceIdeal := by
  intro m ρ m' ρ' hpre hagree
  refine ⟨_, _, Cert.AttnKernel.run m ρ, ?_⟩
  refine (θ_run Cert.ReferenceIdeal.defs _ _).mono (fun _ h c => ?_) (Cert.ReferenceIdeal.Value.run (F := Ideal) m' ρ')
  obtain ⟨hf0, hf1⟩ := Cert.AttnFinite.finite_of_pre _ _ _ (hpre c)
  obtain ⟨ha0, ha1, ha2⟩ := hagree c
  refine ⟨?_, ?_, (h c).2.2⟩
  · rw [(h c).1, Cert.ReferenceIdeal.Read.val_main_v18_eq, ha0, ha1, ha2]
    exact Cert.AttnRef.ref_output _ _ _ hf0 hf1
  · rw [(h c).2.1, Cert.ReferenceIdeal.Read.val_main_v17_eq, ha0, ha1]
    exact Cert.AttnRef.ref_weights _ _ hf0 hf1

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
